-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S5120x2048 : Shape := ⟨2, ![5120, 2048]⟩
abbrev S2048x5120 : Shape := ⟨2, ![2048, 5120]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S5120x2048 : S_.BroadcastsInDim S5120x2048 (![] : Fin 0 → Fin S5120x2048.rank)
  reducesTo_S5120x2048_S_d0_1 : S5120x2048.ReducesTo [0, 1] S_
  bcast_S_S2048x5120 : S_.BroadcastsInDim S2048x5120 (![] : Fin 0 → Fin S2048x5120.rank)
  reducesTo_S2048x5120_S_d0_1 : S2048x5120.ReducesTo [0, 1] S_

variable [Facts]

def fn {F : FTy → Type} [FloatOps F] (main_arg0 : FVec F S8x4096x2048 .f32) (main_arg1 : FVec F S5120x2048 .f32) (main_arg2 : FVec F S2048x5120 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S5120x2048 .f32 := Host.absf main_arg1
  let main_cst_0 : FVec F S_ .f32 := constant S_ .f32 0x7F800000#32
  let main_v5 : FVec F S5120x2048 .f32 := broadcastInDim S5120x2048 ![] bcast_S_S5120x2048 main_cst_0
  let main_v6 : IVec S5120x2048 1 := cmpf .olt main_v4 main_v5
  let main_c_1 : IVec S_ 1 := constantI S_ 1 1#1
  let main_v7 : IVec S_ 1 := (fun x v => Host.reduce IntOp.andi x v reducesTo_S5120x2048_S_d0_1 h_S_) main_v6 main_c_1
  let main_v8 : IVec S_ 1 := andi main_v3 main_v7
  let main_v9 : FVec F S2048x5120 .f32 := Host.absf main_arg2
  let main_cst_2 : FVec F S_ .f32 := constant S_ .f32 0x7F800000#32
  let main_v10 : FVec F S2048x5120 .f32 := broadcastInDim S2048x5120 ![] bcast_S_S2048x5120 main_cst_2
  let main_v11 : IVec S2048x5120 1 := cmpf .olt main_v9 main_v10
  let main_c_3 : IVec S_ 1 := constantI S_ 1 1#1
  let main_v12 : IVec S_ 1 := (fun x v => Host.reduce IntOp.andi x v reducesTo_S2048x5120_S_d0_1 h_S_) main_v11 main_c_3
  let main_v13 : IVec S_ 1 := andi main_v8 main_v12
  main_v13
-- ==== Kernel.lean ====
abbrev S8x4096x2048 : Shape := ⟨3, ![8, 4096, 2048]⟩
abbrev S5120x2048 : Shape := ⟨2, ![5120, 2048]⟩
abbrev S2048x5120 : Shape := ⟨2, ![2048, 5120]⟩
abbrev S_ : Shape := ⟨0, ![]⟩
abbrev S32768x2048 : Shape := ⟨2, ![32768, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 65
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S5120x2048, .f32⟩
  | .hbm, ⟨2, _⟩ => ⟨S2048x5120, .f32⟩
  | .hbm, ⟨3, _⟩ => ⟨S5120x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S5120x2048, .f32⟩
  | .hbm, ⟨13, _⟩ => ⟨S5120x2048, .i1⟩
  | .hbm, ⟨14, _⟩ => ⟨S_, .f32⟩
  | .hbm, ⟨15, _⟩ => ⟨S5120x2048, .f32⟩
  | .hbm, ⟨16, _⟩ => ⟨S5120x2048, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S5120x2048, .f32⟩
  | .hbm, ⟨21, _⟩ => ⟨S5120x2048, .f32⟩
  | .hbm, ⟨22, _⟩ => ⟨S5120x2048, .f32⟩
  | .hbm, ⟨23, _⟩ => ⟨S_, .f32⟩
  | .hbm, ⟨24, _⟩ => ⟨S5120x2048, .f32⟩
  | .hbm, ⟨25, _⟩ => ⟨S5120x2048, .f32⟩
  | .hbm, ⟨26, _⟩ => ⟨S5120x2048, .f32⟩
  | .hbm, ⟨27, _⟩ => ⟨S5120x2048, .f32⟩
  | .hbm, ⟨28, _⟩ => ⟨S5120x2048, .f32⟩
  | .hbm, ⟨29, _⟩ => ⟨S5120x2048, .f32⟩
  | .hbm, ⟨30, _⟩ => ⟨S2048x5120, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x5120, .f32⟩
  | .hbm, ⟨40, _⟩ => ⟨S2048x5120, .i1⟩
  | .hbm, ⟨41, _⟩ => ⟨S_, .f32⟩
  | .hbm, ⟨42, _⟩ => ⟨S2048x5120, .f32⟩
  | .hbm, ⟨43, _⟩ => ⟨S2048x5120, .i1⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048x5120, .f32⟩
  | .hbm, ⟨48, _⟩ => ⟨S2048x5120, .f32⟩
  | .hbm, ⟨49, _⟩ => ⟨S2048x5120, .f32⟩
  | .hbm, ⟨50, _⟩ => ⟨S_, .f32⟩
  | .hbm, ⟨51, _⟩ => ⟨S2048x5120, .f32⟩
  | .hbm, ⟨52, _⟩ => ⟨S2048x5120, .f32⟩
  | .hbm, ⟨53, _⟩ => ⟨S2048x5120, .f32⟩
  | .hbm, ⟨54, _⟩ => ⟨S2048x5120, .f32⟩
  | .hbm, ⟨55, _⟩ => ⟨S2048x5120, .f32⟩
  | .hbm, ⟨56, _⟩ => ⟨S2048x5120, .f32⟩
  | .hbm, ⟨57, _⟩ => ⟨S2048x5120, .f32⟩
  | .hbm, ⟨58, _⟩ => ⟨S2048x5120, .bf16⟩
  | .hbm, ⟨59, _⟩ => ⟨S5120x2048, .f32⟩
  | .hbm, ⟨60, _⟩ => ⟨S5120x2048, .bf16⟩
  | .hbm, ⟨61, _⟩ => ⟨S32768x2048, .f32⟩
  | .hbm, ⟨62, _⟩ => ⟨S32768x2048, .bf16⟩
  | .hbm, ⟨63, _⟩ => ⟨S32768x2048, .f32⟩
  | .hbm, ⟨64, _⟩ => ⟨S8x4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S512x2048, .bf16⟩
  | .local _ .vmem, ⟨5, _⟩ => ⟨S512x2048, .bf16⟩
  | .local _ .vmem, ⟨6, _⟩ => ⟨S1024x2048, .f32⟩
  | .local _ .vmem, ⟨7, _⟩ => ⟨S1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_5 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_cst_8 : Ref sig .tc := ⟨.hbm, 35, rfl⟩
abbrev main_v20 : Ref sig .tc := ⟨.hbm, 36, rfl⟩
abbrev main_cst_9 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_cst_11 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_cst_12 : Ref sig .tc := ⟨.hbm, 50, rfl⟩
abbrev main_call3_v0 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S5120x2048_S_d0_1 : S5120x2048.ReducesTo [0, 1] S_
  h_S_ : 0 < S_.numel
  bcast_S_S5120x2048 : S_.BroadcastsInDim S5120x2048 (![] : Fin 0 → Fin S5120x2048.rank)
  reducesTo_S2048x5120_S_d0_1 : S2048x5120.ReducesTo [0, 1] S_
  bcast_S_S2048x5120 : S_.BroadcastsInDim S2048x5120 (![] : Fin 0 → Fin S2048x5120.rank)
  transposes_S5120x2048_S2048x5120_1_0 : S5120x2048.Transposes [1, 0] S2048x5120
  bitsLt_bf16_f32 : FTy.bits .bf16 < FTy.bits .f32
  transposes_S2048x5120_S5120x2048_1_0 : S2048x5120.Transposes [1, 0] S5120x2048
  shapeCasts_S8x4096x2048_S32768x2048 : S8x4096x2048.ShapeCasts S32768x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S32768x2048_S8x4096x2048 : S32768x2048.ShapeCasts S8x4096x2048
  dot_S1024x2048_S2048x512_S1024x512_1_0_0_1_n_n_wf : DotDims.WF S1024x2048 S2048x512 S1024x512 [1] [0] [0] [1] [] []
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S32768x2048.size a
  hwx0_0 : ∀ i : grid0.Coords, EltTy.bits .bf16 = 32 ∨ (Rect.block (s := S32768x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x5120.size a
  hwx0_1 : ∀ i : grid0.Coords, EltTy.bits .bf16 = 32 ∨ (Rect.block (s := S2048x5120) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S5120x2048.size a
  hwx0_2 : ∀ i : grid0.Coords, EltTy.bits .bf16 = 32 ∨ (Rect.block (s := S5120x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S32768x2048.size a
  hwx0_3 : ∀ i : grid0.Coords, EltTy.bits .f32 = 32 ∨ (Rect.block (s := S32768x2048) S1024x2048.size (cc0_transform_3 i) (hinb0_3 i)).WholeWords (EltTy.packing .f32)

variable [Facts₀]

def dot_S1024x2048_S2048x512_S1024x512_1_0_0_1_n_n : DotDims S1024x2048 S2048x512 S1024x512 where
  lhsContracting := [1]
  rhsContracting := [0]
  lhsNonContracting := [0]
  rhsNonContracting := [1]
  lhsBatch := []
  rhsBatch := []
  wf := dot_S1024x2048_S2048x512_S1024x512_1_0_0_1_n_n_wf
def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_v39) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S5120x2048 : Shape := ⟨2, ![5120, 2048]⟩
abbrev S2048x5120 : Shape := ⟨2, ![2048, 5120]⟩
abbrev S_ : Shape := ⟨0, ![]⟩
abbrev S8x4096x5120 : Shape := ⟨3, ![8, 4096, 5120]⟩

abbrev nBuf : Space → Nat
  | .hbm => 63
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S5120x2048, .f32⟩
  | .hbm, ⟨2, _⟩ => ⟨S2048x5120, .f32⟩
  | .hbm, ⟨3, _⟩ => ⟨S5120x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S5120x2048, .f32⟩
  | .hbm, ⟨13, _⟩ => ⟨S5120x2048, .i1⟩
  | .hbm, ⟨14, _⟩ => ⟨S_, .f32⟩
  | .hbm, ⟨15, _⟩ => ⟨S5120x2048, .f32⟩
  | .hbm, ⟨16, _⟩ => ⟨S5120x2048, .i1⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S5120x2048, .f32⟩
  | .hbm, ⟨21, _⟩ => ⟨S5120x2048, .f32⟩
  | .hbm, ⟨22, _⟩ => ⟨S5120x2048, .f32⟩
  | .hbm, ⟨23, _⟩ => ⟨S_, .f32⟩
  | .hbm, ⟨24, _⟩ => ⟨S5120x2048, .f32⟩
  | .hbm, ⟨25, _⟩ => ⟨S5120x2048, .f32⟩
  | .hbm, ⟨26, _⟩ => ⟨S5120x2048, .f32⟩
  | .hbm, ⟨27, _⟩ => ⟨S5120x2048, .f32⟩
  | .hbm, ⟨28, _⟩ => ⟨S5120x2048, .f32⟩
  | .hbm, ⟨29, _⟩ => ⟨S5120x2048, .f32⟩
  | .hbm, ⟨30, _⟩ => ⟨S8x4096x5120, .f32⟩
  | .hbm, ⟨31, _⟩ => ⟨S_, .f32⟩
  | .hbm, ⟨32, _⟩ => ⟨S8x4096x5120, .f32⟩
  | .hbm, ⟨33, _⟩ => ⟨S8x4096x5120, .f32⟩
  | .hbm, ⟨34, _⟩ => ⟨S8x4096x5120, .f32⟩
  | .hbm, ⟨35, _⟩ => ⟨S2048x5120, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2048x5120, .f32⟩
  | .hbm, ⟨45, _⟩ => ⟨S2048x5120, .i1⟩
  | .hbm, ⟨46, _⟩ => ⟨S_, .f32⟩
  | .hbm, ⟨47, _⟩ => ⟨S2048x5120, .f32⟩
  | .hbm, ⟨48, _⟩ => ⟨S2048x5120, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S2048x5120, .f32⟩
  | .hbm, ⟨53, _⟩ => ⟨S2048x5120, .f32⟩
  | .hbm, ⟨54, _⟩ => ⟨S2048x5120, .f32⟩
  | .hbm, ⟨55, _⟩ => ⟨S_, .f32⟩
  | .hbm, ⟨56, _⟩ => ⟨S2048x5120, .f32⟩
  | .hbm, ⟨57, _⟩ => ⟨S2048x5120, .f32⟩
  | .hbm, ⟨58, _⟩ => ⟨S2048x5120, .f32⟩
  | .hbm, ⟨59, _⟩ => ⟨S2048x5120, .f32⟩
  | .hbm, ⟨60, _⟩ => ⟨S2048x5120, .f32⟩
  | .hbm, ⟨61, _⟩ => ⟨S2048x5120, .f32⟩
  | .hbm, ⟨62, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_cst_5 : Ref sig .tc := ⟨.hbm, 23, rfl⟩
abbrev main_call1_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call2_cst : Ref sig .tc := ⟨.hbm, 31, rfl⟩
abbrev main_call2_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_cst_11 : Ref sig .tc := ⟨.hbm, 51, rfl⟩
abbrev main_call3_v0 : Ref sig .tc := ⟨.hbm, 52, rfl⟩
abbrev main_call3_v1 : Ref sig .tc := ⟨.hbm, 53, rfl⟩
abbrev main_v31 : Ref sig .tc := ⟨.hbm, 54, rfl⟩
abbrev main_cst_12 : Ref sig .tc := ⟨.hbm, 55, rfl⟩
abbrev main_call4_v0 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]

class Facts₀ : Prop where
  reducesTo_S5120x2048_S_d0_1 : S5120x2048.ReducesTo [0, 1] S_
  h_S_ : 0 < S_.numel
  bcast_S_S5120x2048 : S_.BroadcastsInDim S5120x2048 (![] : Fin 0 → Fin S5120x2048.rank)
  bcast_S_S8x4096x5120 : S_.BroadcastsInDim S8x4096x5120 (![] : Fin 0 → Fin S8x4096x5120.rank)
  reducesTo_S2048x5120_S_d0_1 : S2048x5120.ReducesTo [0, 1] S_
  bcast_S_S2048x5120 : S_.BroadcastsInDim S2048x5120 (![] : Fin 0 → Fin S2048x5120.rank)
  dot_S8x4096x2048_S5120x2048_S8x4096x5120_2_1_01_0_n_n_wf : DotDims.WF S8x4096x2048 S5120x2048 S8x4096x5120 [2] [1] [0, 1] [0] [] []
  dot_S8x4096x5120_S2048x5120_S8x4096x2048_2_1_01_0_n_n_wf : DotDims.WF S8x4096x5120 S2048x5120 S8x4096x2048 [2] [1] [0, 1] [0] [] []

variable [Facts₀]

def dot_S8x4096x2048_S5120x2048_S8x4096x5120_2_1_01_0_n_n : DotDims S8x4096x2048 S5120x2048 S8x4096x5120 where
  lhsContracting := [2]
  rhsContracting := [1]
  lhsNonContracting := [0, 1]
  rhsNonContracting := [0]
  lhsBatch := []
  rhsBatch := []
  wf := dot_S8x4096x2048_S5120x2048_S8x4096x5120_2_1_01_0_n_n_wf
def dot_S8x4096x5120_S2048x5120_S8x4096x2048_2_1_01_0_n_n : DotDims S8x4096x5120 S2048x5120 S8x4096x2048 where
  lhsContracting := [2]
  rhsContracting := [1]
  lhsNonContracting := [0, 1]
  rhsNonContracting := [0]
  lhsBatch := []
  rhsBatch := []
  wf := dot_S8x4096x5120_S2048x5120_S8x4096x2048_2_1_01_0_n_n_wf

class Facts : Prop extends Facts₀ where

variable [Facts]
-- ==== Proof.BodyValue.lean ====
/-
  What one run of the kernel body leaves in the output block, as a value.

  The body's last store covers the whole [1024, 2048] output block with one term: the block's previous contents plus the
  product of the activated hidden tile with the second weight tile. At a grid point that opens a row tile (hidden
  coordinate 0) the body first stores the zero block and the term reads that back; at every other point the term
  reads what the point before left. So the block after the body is the same function (`Gen.k0_pay2`) of the three
  input blocks and of either the zero block or the previous contents.
-/
import proofs.«159105_j18786186952998_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.BodyValue

open Cert.KernelIdeal Cert.KernelIdeal.Gen

variable {F : FTy → Type} [FloatOps F]

theorem hz : (![0, 0] : Fin 2 → Nat) = fun _ => 0 := funext fun a => by fin_cases a <;> rfl

/-- A point that continues a row tile: the block holding `xo` ends at the body's term of the input blocks and `xo`. -/
theorem out_B (c : Dev nD) (i : grid0.Coords) (a2 : Memref sig .tc .vmem S1024x2048 .bf16) (h2 : a2.IsWhole)
    (a3 : Memref sig .tc .vmem S2048x512 .bf16) (h3 : a3.IsWhole) (a4 : Memref sig .tc .vmem S512x2048 .bf16) (h4 : a4.IsWhole)
    (a5 : Memref sig .tc .vmem S1024x2048 .f32) (h5 : a5.IsWhole) (hc : ¬cond0_0 i)
    (x0 : Vec F S1024x2048 .bf16) (x1 : Vec F S2048x512 .bf16) (x2 : Vec F S512x2048 .bf16) (xo : Vec F S1024x2048 .f32) :
    out0_B_3 c i a2 h2 a3 h3 a4 h4 a5 h5 hc x0 x1 x2 xo = k0_pay2 x0 x1 xo x2 := by
  unfold out0_B_3
  rw [View.read_writes_eq_canon _ _ _ (cover0_B_3 c i a2 h2 a3 h3 a4 h4 a5 h5 hc x0 x1 x2 xo)]
  unfold kernelRun0_B
  dsimp only
  rw [View.canon_unit_zero hz]
  simp only [View.readAt_eq_ld, h2.read_unread, h3.read_unread, h4.read_unread, h5.read_unread,
    View.ld_unit_zero (S := S1024x2048) hz, View.ld_unit_zero (S := S2048x512) hz, View.ld_unit_zero (S := S512x2048) hz]

/-- A point that opens a row tile: the zero block is stored and read back, so the block ends at the body's term of the
    input blocks and the zero block. -/
theorem out_A (c : Dev nD) (i : grid0.Coords) (a2 : Memref sig .tc .vmem S1024x2048 .bf16) (h2 : a2.IsWhole)
    (a3 : Memref sig .tc .vmem S2048x512 .bf16) (h3 : a3.IsWhole) (a4 : Memref sig .tc .vmem S512x2048 .bf16) (h4 : a4.IsWhole)
    (a5 : Memref sig .tc .vmem S1024x2048 .f32) (h5 : a5.IsWhole) (hc : cond0_0 i)
    (x0 : Vec F S1024x2048 .bf16) (x1 : Vec F S2048x512 .bf16) (x2 : Vec F S512x2048 .bf16) :
    out0_A_3 c i a2 h2 a3 h3 a4 h4 a5 h5 hc x0 x1 x2 = k0_pay2 x0 x1 (k0_pay1 (F := F)) x2 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1024x2048) hz, View.readCov_unit_zero (S := S1024x2048) _ hz]
  simp only [View.readAt_eq_ld, h2.read_unread, h3.read_unread, h4.read_unread,
    View.ld_unit_zero (S := S1024x2048) hz, View.ld_unit_zero (S := S2048x512) hz, View.ld_unit_zero (S := S512x2048) hz]

end Cert.KernelIdeal.BodyValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.Spec.lean ====
/-
  The two-layer network as one function of three matrices, over the extended reals.

  For a matrix `X` of 32768 rows and 2048 columns, a matrix `W1` of 2048 rows and 5120 columns and a matrix `W2` of 5120
  rows and 2048 columns, the network's entry at row `r` and column `q` is

      sum over h < 5120 of  relu2 (sum over e < 2048 of X[r,e] * W1[e,h]) * W2[h,q],     relu2 y = max(y,0) * max(y,0).

  The hidden axis is cut into ten tiles of 512 columns, `h = 512 j + k`. A running total that starts from the zero word and
  adds the tiles' contributions one after the other is, after `J` tiles, `zero + (sum over j < J of tile j)`; after all ten it is
  the whole sum over `h`: the extended reals are a commutative additive monoid, so only regrouping is used, and nothing is
  asked of the entries (they may be infinite).
-/
import Idealize.ShloMosaic.PureOps.Ideal.Laws
import Idealize.ShloMosaic.Lib.ValueIdx

noncomputable section

namespace Cert.Mlp

open Idealize.ShloMosaic Idealize.ShloMosaic.ValueIdx

/-- The zero word both programs compare against and start their sums from; it denotes the real number 0. -/
abbrev zeroW : EReal := Ideal.ofBits .f32 0x00000000#32

theorem zeroW_eq : zeroW = 0 := Ideal.ofBits_zero_f32

/-- The activation: the positive part, squared. -/
def relu2 (y : EReal) : EReal := max y zeroW * max y zeroW

/-- Hidden column `512 j + k` (reduced below 5120, so that the definition is total in `j`). -/
def hid (j : Nat) (k : Fin 512) : Fin 5120 := ⟨(j * 512 + k.val) % 5120, Nat.mod_lt _ (by decide)⟩

/-- Row `1024 i + p` (reduced below 32768, so that the definition is total in `i`). -/
def row (i : Nat) (p : Fin 1024) : Fin 32768 := ⟨(i * 1024 + p.val) % 32768, Nat.mod_lt _ (by decide)⟩

theorem hid_val (j : Nat) (hj : j < 10) (k : Fin 512) : (hid j k).val = j * 512 + k.val := by
  have := k.isLt
  show (j * 512 + k.val) % 5120 = _
  exact Nat.mod_eq_of_lt (by omega)

theorem row_val (i : Nat) (hi : i < 32) (p : Fin 1024) : (row i p).val = i * 1024 + p.val := by
  have := p.isLt
  show (i * 1024 + p.val) % 32768 = _
  exact Nat.mod_eq_of_lt (by omega)

variable (X : (⟨2, ![32768, 2048]⟩ : Shape).Idx → EReal) (W1 : (⟨2, ![2048, 5120]⟩ : Shape).Idx → EReal)
  (W2 : (⟨2, ![5120, 2048]⟩ : Shape).Idx → EReal)

/-- The hidden unit `h` of row `r`, before the activation. -/
def pre (r : Fin 32768) (h : Fin 5120) : EReal := ∑ e : Fin 2048, X (ix2 r e) * W1 (ix2 e h)

/-- What hidden unit `h` adds to the entry at row `r`, column `q`. -/
def term (r : Fin 32768) (q : Fin 2048) (h : Fin 5120) : EReal := relu2 (pre X W1 r h) * W2 (ix2 h q)

/-- What the `j`-th tile of 512 hidden units adds. -/
def tile (r : Fin 32768) (q : Fin 2048) (j : Nat) : EReal := ∑ k : Fin 512, term X W1 W2 r q (hid j k)

/-- The running total after the first `J` tiles, from the zero word. -/
def partialSum (r : Fin 32768) (q : Fin 2048) (J : Nat) : EReal := zeroW + ∑ j ∈ Finset.range J, tile X W1 W2 r q j

/-- The network: the entry at `(r, q)` is the sum over all hidden units. -/
def mlp : (⟨2, ![32768, 2048]⟩ : Shape).Idx → EReal := fun i => ∑ h : Fin 5120, term X W1 W2 (i 0) (i 1) h

theorem partialSum_one (r : Fin 32768) (q : Fin 2048) : partialSum X W1 W2 r q 1 = zeroW + tile X W1 W2 r q 0 := by
  unfold partialSum
  rw [Finset.sum_range_one]

theorem partialSum_succ (r : Fin 32768) (q : Fin 2048) (J : Nat) :
    partialSum X W1 W2 r q (J + 1) = partialSum X W1 W2 r q J + tile X W1 W2 r q J := by
  unfold partialSum
  rw [Finset.sum_range_succ, add_assoc]

/-- A sum over `Fin (m * n)` is the sum over the `m` groups of `n` consecutive positions. -/
theorem sum_groups {β : Type*} [AddCommMonoid β] (m n : Nat) (f : Fin (m * n) → β) :
    ∑ x, f x = ∑ a : Fin m, ∑ b : Fin n, f (finProdFinEquiv (a, b)) := by
  rw [← Equiv.sum_comp finProdFinEquiv, Fintype.sum_prod_type]

/-- Ten tiles are all 5120 hidden units: the running total after the last tile is the network's entry. -/
theorem partialSum_ten (i : (⟨2, ![32768, 2048]⟩ : Shape).Idx) :
    partialSum X W1 W2 (i 0) (i 1) 10 = mlp X W1 W2 i := by
  unfold partialSum mlp
  rw [zeroW_eq, zero_add, Finset.sum_range]
  have h := sum_groups 10 512 (fun h : Fin (10 * 512) => term X W1 W2 (i 0) (i 1) h)
  refine Eq.trans ?_ h.symm
  refine Finset.sum_congr rfl fun a _ => ?_
  unfold tile
  refine Finset.sum_congr rfl fun b _ => ?_
  congr 1
  apply Fin.ext
  rw [hid_val a.val a.isLt b]
  show _ = (finProdFinEquiv (a, b)).val
  rw [finProdFinEquiv_apply_val]
  show a.val * 512 + b.val = b.val + 512 * a.val
  omega

/-! ## The same network over the unflattened input -/

/-- Row `4096 b + s` of the flattened input is batch `b`, position `s`. -/
def flat (b : Fin 8) (s : Fin 4096) : Fin 32768 := ⟨b.val * 4096 + s.val, by have := b.isLt; have := s.isLt; omega⟩

/-- The network over an input `A` of shape [8, 4096, 2048] and weight matrices stored output-major — `T1` of 5120 rows
    (hidden units) and 2048 columns, `T2` of 2048 rows (outputs) and 5120 columns —: the entry at `(b, s, d)` is
    the sum over the hidden units `h` of `relu2 (sum over e of A[b,s,e] * T1[h,e]) * T2[d,h]`. -/
def net3 (A : (⟨3, ![8, 4096, 2048]⟩ : Shape).Idx → EReal) (T1 : (⟨2, ![5120, 2048]⟩ : Shape).Idx → EReal)
    (T2 : (⟨2, ![2048, 5120]⟩ : Shape).Idx → EReal) : (⟨3, ![8, 4096, 2048]⟩ : Shape).Idx → EReal :=
  fun i => ∑ h : Fin 5120, relu2 (∑ e : Fin 2048, A (ix3 (i 0) (i 1) e) * T1 (ix2 h e)) * T2 (ix2 (i 2) h)

/-- When `X` is `A` with its two leading axes flattened and `W1`, `W2` are the transposes of `T1`, `T2`, the network of
    `(X, W1, W2)` at row `4096 b + s`, column `d` is the network of `(A, T1, T2)` at `(b, s, d)`. -/
theorem mlp_flat (A : (⟨3, ![8, 4096, 2048]⟩ : Shape).Idx → EReal) (T1 : (⟨2, ![5120, 2048]⟩ : Shape).Idx → EReal)
    (T2 : (⟨2, ![2048, 5120]⟩ : Shape).Idx → EReal)
    (hX : ∀ (b : Fin 8) (s : Fin 4096) (e : Fin 2048), X (ix2 (flat b s) e) = A (ix3 b s e))
    (hW1 : ∀ (e : Fin 2048) (h : Fin 5120), W1 (ix2 e h) = T1 (ix2 h e))
    (hW2 : ∀ (h : Fin 5120) (d : Fin 2048), W2 (ix2 h d) = T2 (ix2 d h))
    (b : Fin 8) (s : Fin 4096) (d : Fin 2048) :
    mlp X W1 W2 (ix2 (flat b s) d) = net3 A T1 T2 (ix3 b s d) := by
  unfold mlp net3 term pre
  refine Finset.sum_congr rfl fun h _ => ?_
  refine congrArg₂ (· * ·) (congrArg relu2 (Finset.sum_congr rfl fun e _ => ?_)) (hW2 h d)
  exact congrArg₂ (· * ·) (hX b s e) (hW1 e h)

end Cert.Mlp

end
-- ==== Proof.Payload.lean ====
/-
  The body's term at an entry, over the extended reals.

  With `x0` the [1024, 2048] block of inputs, `x1` the [2048, 512] tile of the first weights, `x2` the [512, 2048] tile of
  the second weights and `xo` the block's previous contents, the term the body stores is, at entry `(p, q)`,

      xo[p,q] + sum over k < 512 of relu2 (sum over e < 2048 of x0[p,e] * x1[e,k]) * x2[k,q]:

  each matrix product into a zero accumulator is the plain sum over its contraction index, a change of float format is the
  identity on the extended reals, and the maximum with zero and the square act entry by entry.
-/
import proofs.«159105_j18786186952998_1_alg».proof.Proof.Gen.KernelIdeal.Skeleton
import proofs.«159105_j18786186952998_1_alg».proof.Proof.LibPlainDot
import proofs.«159105_j18786186952998_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The first product, inputs by first weights, into the zero accumulator: the sum over the 2048 input features. -/
theorem product_in (A : FVec Ideal S1024x2048 .bf16) (B : FVec Ideal S2048x512 .bf16) (p : Fin 1024) (k : Fin 512) :
    matmul dot_S1024x2048_S2048x512_S1024x512_1_0_0_1_n_n none A B (constant S1024x512 .f32 0x00000000#32) (ix2 p k)
      = ∑ e : Fin 2048, A (ix2 p e) * B (ix2 e k) :=
  (Ideal.matmul_constant_zero_apply dot_S1024x2048_S2048x512_S1024x512_1_0_0_1_n_n none A B (ix2 p k)).trans
    (PlainDot.plain_sum dot_S1024x2048_S2048x512_S1024x512_1_0_0_1_n_n rfl rfl rfl rfl rfl rfl rfl rfl
      (fun a b => A a * B b) p k)

/-- The second product, activated hidden tile by second weights, into the zero accumulator: the sum over the tile's 512
    hidden units. -/
theorem product_out (A : FVec Ideal S1024x512 .bf16) (B : FVec Ideal S512x2048 .bf16) (p : Fin 1024) (q : Fin 2048) :
    matmul dot_S1024x512_S512x2048_S1024x2048_1_0_0_1_n_n none A B (constant S1024x2048 .f32 0x00000000#32) (ix2 p q)
      = ∑ k : Fin 512, A (ix2 p k) * B (ix2 k q) :=
  (Ideal.matmul_constant_zero_apply dot_S1024x512_S512x2048_S1024x2048_1_0_0_1_n_n none A B (ix2 p q)).trans
    (PlainDot.plain_sum dot_S1024x512_S512x2048_S1024x2048_1_0_0_1_n_n rfl rfl rfl rfl rfl rfl rfl rfl
      (fun a b => A a * B b) p q)

/-- What one tile of 512 hidden units adds at entry `(p, q)` of the block, from the three input blocks. -/
def blockTerm (x0 : Vec Ideal S1024x2048 .bf16) (x1 : Vec Ideal S2048x512 .bf16) (x2 : Vec Ideal S512x2048 .bf16)
    (p : Fin 1024) (q : Fin 2048) : EReal :=
  ∑ k : Fin 512, Cert.Mlp.relu2 (∑ e : Fin 2048, x0 (ix2 p e) * x1 (ix2 e k)) * x2 (ix2 k q)

/-- The body's term at entry `(p, q)`: the previous contents plus the tile's contribution. -/
theorem pay2_apply (x0 : Vec Ideal S1024x2048 .bf16) (x1 : Vec Ideal S2048x512 .bf16) (xo : Vec Ideal S1024x2048 .f32)
    (x2 : Vec Ideal S512x2048 .bf16) (p : Fin 1024) (q : Fin 2048) :
    k0_pay2 (F := Ideal) x0 x1 xo x2 (ix2 p q) = xo (ix2 p q) + blockTerm x0 x1 x2 p q := by
  unfold k0_pay2 blockTerm
  simp only [shapeCast_self]
  show xo (ix2 p q) + _ = _
  congr 1
  refine (product_out _ x2 p q).trans ?_
  refine Finset.sum_congr rfl fun k _ => ?_
  congr 1
  show max (matmul (F := Ideal) dot_S1024x2048_S2048x512_S1024x512_1_0_0_1_n_n none x0 x1 (constant S1024x512 .f32 0x00000000#32) (ix2 p k) : EReal) Cert.Mlp.zeroW
      * max (matmul (F := Ideal) dot_S1024x2048_S2048x512_S1024x512_1_0_0_1_n_n none x0 x1 (constant S1024x512 .f32 0x00000000#32) (ix2 p k) : EReal) Cert.Mlp.zeroW = _
  rw [product_in]
  rfl

/-- The zero block at an entry. -/
theorem pay1_apply (j : S1024x2048.Idx) : k0_pay1 (F := Ideal) j = Cert.Mlp.zeroW := rfl

end Cert.KernelIdeal.Payload

end
-- ==== Proof.Accumulate.lean ====
/-
  The output array after the kernel, as one function of the three arrays the kernel is launched on.

  The grid has 32 row tiles of 1024 rows and, inside each, 10 hidden tiles of 512 hidden units; point `t` is row tile
  `t / 10`, hidden tile `t % 10`. The output block of a row tile stays in place over its ten points and is written back after
  the last. By induction on the point, after point `t` the block's entry `(p, q)` is the running total, from the zero word, of
  the first `t % 10 + 1` hidden tiles' contributions to row `1024 (t / 10) + p`, column `q`. After the tenth that is the
  network's entry (Spec), and the 32 written-back blocks tile the array.
-/
import proofs.«159105_j18786186952998_1_alg».proof.Proof.BodyValue
import proofs.«159105_j18786186952998_1_alg».proof.Proof.Payload
import proofs.«159105_j18786186952998_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.Mlp Cert.KernelIdeal.Payload

variable (m : (ℓ : Loc nD τ sig) → Buf (Elt Ideal) ℓ)

/-- The block index maps, decided over the 320 grid points: the inputs and the output move with the row tile, the two
    weight tiles with the hidden tile. -/
theorem idx_facts : ∀ t : Fin cfg0.N,
    win0_0.index t (0 : Fin 2) = t.val / 10 ∧ win0_0.index t (1 : Fin 2) = 0
    ∧ win0_1.index t (0 : Fin 2) = 0 ∧ win0_1.index t (1 : Fin 2) = t.val % 10
    ∧ win0_2.index t (0 : Fin 2) = t.val % 10 ∧ win0_2.index t (1 : Fin 2) = 0
    ∧ win0_3.index t (0 : Fin 2) = t.val / 10 ∧ win0_3.index t (1 : Fin 2) = 0 :=
  (by decide +kernel : ∀ t : Fin grid0.N, _)

/-- The three arrays as the kernel finds them. -/
abbrev X (c : Dev nD) : (⟨2, ![32768, 2048]⟩ : Shape).Idx → EReal := V m c main_v39
abbrev W1 (c : Dev nD) : (⟨2, ![2048, 5120]⟩ : Shape).Idx → EReal := V m c main_v35
abbrev W2 (c : Dev nD) : (⟨2, ![5120, 2048]⟩ : Shape).Idx → EReal := V m c main_v37

/-- The input block at point `t` holds rows `1024 (t / 10) + p` of the inputs. -/
theorem iblk0_apply (c : Dev nD) (t : Fin cfg0.N) (p : Fin 1024) (e : Fin 2048) :
    (iblk m c 0 t : Vec Ideal S1024x2048 .bf16) (ix2 p e) = X m c (ix2 (row (t.val / 10) p) e) := by
  have hN : t.val < 320 := lt_of_lt_of_eq t.isLt (show cfg0.N = 320 from N_0)
  obtain ⟨e0, e1, -⟩ := idx_facts t
  unfold iblk
  rw [View.read_apply]
  show V m c main_v39 _ = V m c main_v39 _
  refine congrArg (V m c main_v39) (funext fun a => Fin.ext ?_)
  match a with
  | ⟨0, _⟩ =>
    show win0_0.index t (0 : Fin 2) * 1024 + 1 * p.val = (row (t.val / 10) p).val
    rw [row_val _ (by omega) p, e0]; omega
  | ⟨1, _⟩ =>
    show win0_0.index t (1 : Fin 2) * 2048 + 1 * e.val = e.val
    rw [e1]; omega

/-- The first weight tile at point `t` holds hidden columns `512 (t % 10) + k`. -/
theorem iblk1_apply (c : Dev nD) (t : Fin cfg0.N) (e : Fin 2048) (k : Fin 512) :
    (iblk m c 1 t : Vec Ideal S2048x512 .bf16) (ix2 e k) = W1 m c (ix2 e (hid (t.val % 10) k)) := by
  obtain ⟨-, -, e0, e1, -⟩ := idx_facts t
  unfold iblk
  rw [View.read_apply]
  show V m c main_v35 _ = V m c main_v35 _
  refine congrArg (V m c main_v35) (funext fun a => Fin.ext ?_)
  match a with
  | ⟨0, _⟩ =>
    show win0_1.index t (0 : Fin 2) * 2048 + 1 * e.val = e.val
    rw [e0]; omega
  | ⟨1, _⟩ =>
    show win0_1.index t (1 : Fin 2) * 512 + 1 * k.val = (hid (t.val % 10) k).val
    rw [hid_val _ (by omega) k, e1]; omega

/-- The second weight tile at point `t` holds hidden rows `512 (t % 10) + k`. -/
theorem iblk2_apply (c : Dev nD) (t : Fin cfg0.N) (k : Fin 512) (q : Fin 2048) :
    (iblk m c 2 t : Vec Ideal S512x2048 .bf16) (ix2 k q) = W2 m c (ix2 (hid (t.val % 10) k) q) := by
  obtain ⟨-, -, -, -, e0, e1, -⟩ := idx_facts t
  unfold iblk
  rw [View.read_apply]
  show V m c main_v37 _ = V m c main_v37 _
  refine congrArg (V m c main_v37) (funext fun a => Fin.ext ?_)
  match a with
  | ⟨0, _⟩ =>
    show win0_2.index t (0 : Fin 2) * 512 + 1 * k.val = (hid (t.val % 10) k).val
    rw [hid_val _ (by omega) k, e0]; omega
  | ⟨1, _⟩ =>
    show win0_2.index t (1 : Fin 2) * 2048 + 1 * q.val = q.val
    rw [e1]; omega

/-- The contribution of point `t`'s blocks at entry `(p, q)` is hidden tile `t % 10`'s contribution to row
    `1024 (t / 10) + p`, column `q` of the network. -/
theorem tile_at (c : Dev nD) (t : Fin cfg0.N) (p : Fin 1024) (q : Fin 2048) :
    blockTerm (iblk m c 0 t) (iblk m c 1 t) (iblk m c 2 t) p q
      = tile (X m c) (W1 m c) (W2 m c) (row (t.val / 10) p) q (t.val % 10) := by
  unfold blockTerm tile term pre
  refine Finset.sum_congr rfl fun k _ => ?_
  refine congrArg₂ (· * ·) (congrArg relu2 (Finset.sum_congr rfl fun e _ => ?_)) (iblk2_apply m c t k q)
  exact congrArg₂ (· * ·) (iblk0_apply m c t p e) (iblk1_apply m c t e k)

/-- A point that opens a row tile leaves, at entry `(p, q)`, the zero word plus its blocks' contribution. -/
theorem caseA_apply (c : Dev nD) (i : grid0.Coords) (a2 : Memref sig .tc .vmem S1024x2048 .bf16) (h2 : a2.IsWhole)
    (a3 : Memref sig .tc .vmem S2048x512 .bf16) (h3 : a3.IsWhole) (a4 : Memref sig .tc .vmem S512x2048 .bf16) (h4 : a4.IsWhole)
    (a5 : Memref sig .tc .vmem S1024x2048 .f32) (h5 : a5.IsWhole) (hc : cond0_0 i)
    (x0 : Vec Ideal S1024x2048 .bf16) (x1 : Vec Ideal S2048x512 .bf16) (x2 : Vec Ideal S512x2048 .bf16)
    (p : Fin 1024) (q : Fin 2048) :
    out0_A_3 (F := Ideal) c i a2 h2 a3 h3 a4 h4 a5 h5 hc x0 x1 x2 (ix2 p q) = zeroW + blockTerm x0 x1 x2 p q := by
  rw [BodyValue.out_A, pay2_apply]
  rfl

/-- A point that continues a row tile leaves, at entry `(p, q)`, what was there plus its blocks' contribution. -/
theorem caseB_apply (c : Dev nD) (i : grid0.Coords) (a2 : Memref sig .tc .vmem S1024x2048 .bf16) (h2 : a2.IsWhole)
    (a3 : Memref sig .tc .vmem S2048x512 .bf16) (h3 : a3.IsWhole) (a4 : Memref sig .tc .vmem S512x2048 .bf16) (h4 : a4.IsWhole)
    (a5 : Memref sig .tc .vmem S1024x2048 .f32) (h5 : a5.IsWhole) (hc : ¬cond0_0 i)
    (x0 : Vec Ideal S1024x2048 .bf16) (x1 : Vec Ideal S2048x512 .bf16) (x2 : Vec Ideal S512x2048 .bf16)
    (xo : Vec Ideal S1024x2048 .f32) (p : Fin 1024) (q : Fin 2048) :
    out0_B_3 (F := Ideal) c i a2 h2 a3 h3 a4 h4 a5 h5 hc x0 x1 x2 xo (ix2 p q) = xo (ix2 p q) + blockTerm x0 x1 x2 p q := by
  rw [BodyValue.out_B, pay2_apply]

/-- THE RUNNING TOTAL. After point `n` the output block's entry `(p, q)` is the zero word plus the contributions of hidden
    tiles `0 … n % 10` to row `1024 (n / 10) + p`, column `q`: by induction on the point. -/
theorem outsAt_eq (c : Dev nD) : ∀ (n : ℕ) (h : n < cfg0.N) (p : Fin 1024) (q : Fin 2048),
    outsAt0 m c n h (ix2 p q) = partialSum (X m c) (W1 m c) (W2 m c) (row (n / 10) p) q (n % 10 + 1) := by
  intro n
  induction n with
  | zero =>
    intro h p q
    refine (congrFun (outsAt0_A m c ⟨0, h⟩ rfl) (ix2 p q)).trans ?_
    refine (caseA_apply c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) ((hcond0_0 ⟨0, h⟩).mpr rfl) (iblk m c 0 ⟨0, h⟩) (iblk m c 1 ⟨0, h⟩) (iblk m c 2 ⟨0, h⟩) p q).trans ?_
    refine (congrArg (zeroW + ·) (tile_at m c ⟨0, h⟩ p q)).trans ?_
    exact (partialSum_one (X m c) (W1 m c) (W2 m c) (row (0 / 10) p) q).symm
  | succ n ih =>
    intro h p q
    have hN : n + 1 < 320 := lt_of_lt_of_eq h (show cfg0.N = 320 from N_0)
    by_cases h0 : (n + 1) % 10 = 0
    · refine (congrFun (outsAt0_A m c ⟨n + 1, h⟩ h0) (ix2 p q)).trans ?_
      refine (caseA_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) ((hcond0_0 ⟨n + 1, h⟩).mpr h0)
        (iblk m c 0 ⟨n + 1, h⟩) (iblk m c 1 ⟨n + 1, h⟩) (iblk m c 2 ⟨n + 1, h⟩) p q).trans ?_
      refine (congrArg (zeroW + ·) (tile_at m c ⟨n + 1, h⟩ p q)).trans ?_
      show zeroW + tile (X m c) (W1 m c) (W2 m c) (row ((n + 1) / 10) p) q ((n + 1) % 10)
        = partialSum (X m c) (W1 m c) (W2 m c) (row ((n + 1) / 10) p) q ((n + 1) % 10 + 1)
      rw [h0]
      exact (partialSum_one (X m c) (W1 m c) (W2 m c) (row ((n + 1) / 10) p) q).symm
    · refine (congrFun (outsAt0_B m c ⟨n + 1, h⟩ h0) (ix2 p q)).trans ?_
      refine (caseB_apply c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (fun hh => h0 ((hcond0_0 ⟨n + 1, h⟩).mp hh))
        (iblk m c 0 ⟨n + 1, h⟩) (iblk m c 1 ⟨n + 1, h⟩) (iblk m c 2 ⟨n + 1, h⟩) (outsAt0 m c n (Nat.lt_of_succ_lt h)) p q).trans ?_
      refine (congrArg₂ (· + ·) (ih (Nat.lt_of_succ_lt h) p q) (tile_at m c ⟨n + 1, h⟩ p q)).trans ?_
      have e1 : (n + 1) / 10 = n / 10 := by omega
      have e2 : (n + 1) % 10 = n % 10 + 1 := by omega
      show partialSum (X m c) (W1 m c) (W2 m c) (row (n / 10) p) q (n % 10 + 1)
          + tile (X m c) (W1 m c) (W2 m c) (row ((n + 1) / 10) p) q ((n + 1) % 10)
        = partialSum (X m c) (W1 m c) (W2 m c) (row ((n + 1) / 10) p) q ((n + 1) % 10 + 1)
      rw [e1, e2]
      exact (partialSum_succ (X m c) (W1 m c) (W2 m c) (row (n / 10) p) q (n % 10 + 1)).symm

/-- The output array after the kernel: the network of the three arrays the kernel was launched on. -/
abbrev result (c : Dev nD) : Buf (Elt Ideal) ((c : Thread nD τ).loc main_v40) := mlp (X m c) (W1 m c) (W2 m c)

/-- At the last point of a row tile the block is that row tile of the network. -/
theorem block_eq (c : Dev nD) (t : Fin cfg0.N) (h9 : t.val % 10 = 9) (j : S1024x2048.Idx) :
    outsAt0 m c t.val t.isLt j = result m c (((cfg0.win 3).blk t).view.emb j) := by
  have hN : t.val < 320 := lt_of_lt_of_eq t.isLt (show cfg0.N = 320 from N_0)
  obtain ⟨-, -, -, -, -, -, e0, e1⟩ := idx_facts t
  obtain ⟨p, q, rfl⟩ : ∃ (p : Fin 1024) (q : Fin 2048), j = ix2 p q := ⟨j 0, j 1, eq_ix2 j⟩
  have hemb : ((cfg0.win 3).blk t).view.emb (ix2 p q) = ix2 (row (t.val / 10) p) q := by
    funext a
    apply Fin.ext
    match a with
    | ⟨0, _⟩ =>
      show win0_3.index t (0 : Fin 2) * 1024 + 1 * p.val = (row (t.val / 10) p).val
      rw [row_val _ (by omega) p, e0]; omega
    | ⟨1, _⟩ =>
      show win0_3.index t (1 : Fin 2) * 2048 + 1 * q.val = q.val
      rw [e1]; omega
  rw [hemb, outsAt_eq m c t.val t.isLt p q, h9]
  exact partialSum_ten (X m c) (W1 m c) (W2 m c) (ix2 (row (t.val / 10) p) q)

/-- What a writing-back point writes is its block of the network. -/
theorem flushed_eq (c : Dev nD) (t : Fin cfg0.N) (hf : (cfg0.win 3).flush t = true) :
    (dats m 0 c).flushed 3 t = ((cfg0.win 3).blk t).view.read (Elt Ideal) (result m c) := by
  have h9 : t.val % 10 = 9 := (flush0_3 t).mp hf
  show (cfg0.win 3).cut (grid0.coords t) ((dats m 0 c).after 3 t) = _
  rw [after0_3]
  funext j
  exact block_eq m c t h9 j

/-- An index of the array is in point `t`'s block iff each coordinate is in the block's range on its axis. -/
theorem mem_blk (t : Fin cfg0.N) (i : S32768x2048.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v40).slice (win0_3.rect t)).set ↔ _
  rw [View.set_slice_whole, Rect.mem_set_unit]
  exact Iff.rfl

/-- Row `r` lies in the block written back at the last point of row tile `r / 1024`. -/
theorem cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  have hN : cfg0.N = 320 := N_0
  obtain ⟨t, ht⟩ : ∃ t : Fin cfg0.N, t.val = 10 * ((i 0).val / 1024) + 9 := ⟨⟨_, by rw [hN]; omega⟩, rfl⟩
  obtain ⟨-, -, -, -, -, -, e0, e1⟩ := idx_facts t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0]; omega
  | ⟨1, _⟩ =>
    show win0_3.index t (1 : Fin 2) * 2048 ≤ (i 1).val ∧ (i 1).val < win0_3.index t (1 : Fin 2) * 2048 + 2048
    rw [e1]; omega

/-- So the output array ends holding the network of the three arrays. -/
theorem final (c : Dev nD) : (dats m 0 c).arrAt 3 cfg0.N = result m c :=
  (dats m 0 c).arrAt_eq_of_cover 3 (result m c) (flushed_eq m c) cover

end Cert.KernelIdeal.Accumulate

end
-- ==== Proof.KernelRun.lean ====
/-
  The kernel program's result, as one function of its three arguments.

  Before the kernel the program flattens the input to [32768, 2048], ternarizes the two weight matrices and transposes
  them; every change of float format is the identity on the extended reals. After it, the [32768, 2048] array is
  reshaped to [8, 4096, 2048]. So the arrays the kernel is launched on are the flattened input and the transposes of the two
  ternarized matrices, the array it leaves is their network (Accumulate), and the program's result at `(b, s, d)` is the
  network `net3` of the input and the two ternarized matrices. The ternarized matrices are named by the reference's stages
  that compute them: both programs apply the same operations, with the same literal words, to the same argument.
-/
import proofs.«159105_j18786186952998_1_alg».proof.Proof.Accumulate
import proofs.«159105_j18786186952998_1_alg».proof.Proof.Gen.ReferenceIdeal.Read
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.KernelRun

open Cert.KernelIdeal Cert.KernelIdeal.Gen Cert.Mlp Cert.KernelIdeal.Accumulate

variable (m : (ℓ : Loc nD τ sig) → Buf (Elt Ideal) ℓ) (ρ : Dev nD → PrngReg)

/-- The input, and the two ternarized weight matrices (the reference's stages, of this program's arguments). -/
abbrev A (c : Dev nD) : (⟨3, ![8, 4096, 2048]⟩ : Shape).Idx → EReal := m ((c : Thread nD τ).loc main_arg0)
abbrev T1 (c : Dev nD) : (⟨2, ![5120, 2048]⟩ : Shape).Idx → EReal :=
  Cert.ReferenceIdeal.Read.val_main_v16 (F := Ideal) (m ((c : Thread nD τ).loc main_arg1))
abbrev T2 (c : Dev nD) : (⟨2, ![2048, 5120]⟩ : Shape).Idx → EReal :=
  Cert.ReferenceIdeal.Read.val_main_v36 (F := Ideal) (m ((c : Thread nD τ).loc main_arg2))

/-- The kernel's first array is the flattened input. -/
theorem X_eq (c : Dev nD) : X m c
    = truncf (F := Ideal) .bf16 (shapeCast S32768x2048 (A m c) shapeCasts_S8x4096x2048_S32768x2048) bitsLt_bf16_f32 := by
  dsimp only [X, Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

set_option maxRecDepth 8192 in
set_option maxHeartbeats 4000000 in
/-- The kernel's second array is the transpose of the first ternarized matrix. -/
theorem W1_eq (c : Dev nD) : W1 m c
    = truncf (F := Ideal) .bf16 (transpose S2048x5120 [1, 0] (T1 m c) transposes_S5120x2048_S2048x5120_1_0) bitsLt_bf16_f32 := by
  dsimp only [W1, Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

set_option maxRecDepth 8192 in
set_option maxHeartbeats 4000000 in
/-- The kernel's third array is the transpose of the second ternarized matrix. -/
theorem W2_eq (c : Dev nD) : W2 m c
    = truncf (F := Ideal) .bf16 (transpose S5120x2048 [1, 0] (T2 m c) transposes_S2048x5120_S5120x2048_1_0) bitsLt_bf16_f32 := by
  dsimp only [W2, Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- Row `4096 b + s` of the flattened input is `(b, s)` of the input: the same row-major position. -/
theorem X_apply (c : Dev nD) (b : Fin 8) (s : Fin 4096) (e : Fin 2048) : X m c (ix2 (flat b s) e) = A m c (ix3 b s e) := by
  rw [X_eq]
  show shapeCast S32768x2048 (A m c) shapeCasts_S8x4096x2048_S32768x2048 (ix2 (flat b s) e) = _
  exact shapeCast_apply (s := S8x4096x2048) (t := S32768x2048) (A m c) shapeCasts_S8x4096x2048_S32768x2048
    (ix2 (flat b s) e) (ix3 b s e) (by rw [Shape.rowMajor_val_three, Shape.rowMajor_val_two]; rfl)

theorem W1_apply (c : Dev nD) (e : Fin 2048) (h : Fin 5120) : W1 m c (ix2 e h) = T1 m c (ix2 h e) := by
  rw [W1_eq]
  exact transpose_ix2_apply (T1 m c) transposes_S5120x2048_S2048x5120_1_0 e h

theorem W2_apply (c : Dev nD) (h : Fin 5120) (d : Fin 2048) : W2 m c (ix2 h d) = T2 m c (ix2 d h) := by
  rw [W2_eq]
  exact transpose_ix2_apply (T2 m c) transposes_S2048x5120_S5120x2048_1_0 h d

/-- The program's result: the network of the input and the two ternarized matrices. -/
abbrev result (c : Dev nD) : Buf (Elt Ideal) ((c : Thread nD τ).loc main_v41) := net3 (A m c) (T1 m c) (T2 m c)

/-- The reshape after the kernel reads the kernel's array at row `4096 b + s`. -/
theorem tail_eq (c : Dev nD) : Pipeline.afterTail₀ cfgs (dats m) 0 (V0 m) [hostOps1] c main_v41 = result m c := by
  unfold Pipeline.afterTail₀
  show StableHlo.after hostOps1 _ (Proc.devRef .tc main_v41) = _
  after_results
  rw [show Pipeline.withArrays (cfgs 0).spec c (V0 m c) (fun w => (dats m 0 c).arrAt w (cfgs 0).N) (Proc.devRef .tc main_v40)
      = Accumulate.result m c from
    (Pipeline.withArrays_arr spec0 launch0.win.arr_inj c _ _ 3).trans (Accumulate.final m c)]
  funext i
  obtain ⟨b, s, d, rfl⟩ : ∃ (b : Fin 8) (s : Fin 4096) (d : Fin 2048), i = ix3 b s d := ⟨i 0, i 1, i 2, eq_ix3 i⟩
  show shapeCast S8x4096x2048 (Accumulate.result m c) shapeCasts_S32768x2048_S8x4096x2048 (ix3 b s d) = _
  refine (shapeCast_apply (s := S32768x2048) (t := S8x4096x2048) (Accumulate.result m c)
    shapeCasts_S32768x2048_S8x4096x2048 (ix3 b s d) (ix2 (flat b s) d)
    (by rw [Shape.rowMajor_val_three, Shape.rowMajor_val_two]; rfl)).trans ?_
  exact mlp_flat (X m c) (W1 m c) (W2 m c) (A m c) (T1 m c) (T2 m c) (X_apply m c) (W1_apply m c) (W2_apply m c) b s d

/-- The program's run, read: the result at the network, the arguments unchanged. -/
theorem run : θ_run defs (onTc (τ := τ) (main (F := Ideal))) ⟨m, fun _ => 0, ρ⟩ fun r => ∀ c : Dev nD,
      r.2.mem ((c.tc : Thread nD τ).loc main_v41) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v41 (Pipeline.mem_restRefs_of main_v41 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The reference's result, entry by entry.

  The reference multiplies the input by the first ternarized weight matrix `T1` (contracting the feature axis), takes the
  positive part, squares it, and multiplies by the second ternarized weight matrix `T2` (contracting the hidden axis). Read at
  `(b, s, d)` through the two products' sums that is the network `net3` of the input and the two ternarized matrices;
  the ternarized matrices themselves are left as the stages that compute them.
-/
import proofs.«159105_j18786186952998_1_alg».proof.Proof.Gen.ReferenceIdeal.Read
import proofs.«159105_j18786186952998_1_alg».proof.Proof.Spec

noncomputable section

open Idealize.ShloMosaic Idealize.ShloMosaic.ValueIdx

namespace Cert.ReferenceIdeal.RefValue

open Cert.ReferenceIdeal Cert.ReferenceIdeal.Read Cert.Mlp

/-- The reference's result is the network of its input and its two ternarized weight matrices. -/
theorem ref_eq (x0 : (⟨S8x4096x2048, .f32⟩ : BufTy).Contents (Elt Ideal)) (x1 : (⟨S5120x2048, .f32⟩ : BufTy).Contents (Elt Ideal))
    (x2 : (⟨S2048x5120, .f32⟩ : BufTy).Contents (Elt Ideal)) :
    val_main_v37 (F := Ideal) x0 x1 x2 = net3 x0 (val_main_v16 (F := Ideal) x1) (val_main_v36 (F := Ideal) x2) := by
  funext i
  obtain ⟨b, s, d, rfl⟩ : ∃ (b : Fin 8) (s : Fin 4096) (d : Fin 2048), i = ix3 b s d := ⟨i 0, i 1, i 2, eq_ix3 i⟩
  rw [val_main_v37_apply]
  unfold net3
  refine Finset.sum_congr rfl fun h _ => ?_
  have el : lidx_main_v37 (ix3 b s d) h = ix3 b s h :=
    funext fun a => Fin.ext (by match a with | ⟨0, _⟩ => rfl | ⟨1, _⟩ => rfl | ⟨2, _⟩ => rfl)
  have er : ridx_main_v37 (ix3 b s d) h = ix2 d h :=
    funext fun a => Fin.ext (by match a with | ⟨0, _⟩ => rfl | ⟨1, _⟩ => rfl)
  rw [el, er]
  refine congrArg (· * val_main_v36 (F := Ideal) x2 (ix2 d h)) ?_
  rw [val_main_v19_apply, val_main_v18_apply, val_main_v17_apply, val_main_call2_v0_apply, val_main_call2_cst_apply]
  have e17 : ∀ e : Fin 2048, x0 (lidx_main_v17 (ix3 b s h) e) * val_main_v16 (F := Ideal) x1 (ridx_main_v17 (ix3 b s h) e)
      = x0 (ix3 b s e) * val_main_v16 (F := Ideal) x1 (ix2 h e) := fun e => by
    have e1 : lidx_main_v17 (ix3 b s h) e = ix3 b s e :=
      funext fun a => Fin.ext (by match a with | ⟨0, _⟩ => rfl | ⟨1, _⟩ => rfl | ⟨2, _⟩ => rfl)
    have e2 : ridx_main_v17 (ix3 b s h) e = ix2 h e :=
      funext fun a => Fin.ext (by match a with | ⟨0, _⟩ => rfl | ⟨1, _⟩ => rfl)
    rw [e1, e2]
  rw [Finset.sum_congr rfl fun e _ => e17 e]
  rfl

end Cert.ReferenceIdeal.RefValue

end
-- ==== Proof.lean ====
/-
  A two-layer network with ternarized weights and a squared positive-part activation: a tiled kernel against its
  plain reference, over the extended reals.

  Both programs ternarize the two weight matrices by the same operations on the same literal words. The reference then
  computes, at `(b, s, d)`,

      sum over h < 5120 of  relu2 (sum over e < 2048 of x[b,s,e] * T1[h,e]) * T2[d,h],     relu2 y = max(y,0) * max(y,0).

  The kernel program flattens `x` to 32768 rows, transposes the ternarized matrices, and runs a grid of 32 row tiles by 10
  hidden tiles: each point adds, into the resident output block of its row tile, the product of the activated hidden tile
  with the matching rows of the second matrix, the first point of a row tile starting from the zero block; the block is
  written back after the tenth. Changes of float format are the identity on the extended reals, each matrix product into
  a zero accumulator is the plain sum over its contraction index, and the running total after ten tiles is the whole sum over
  the 5120 hidden units: addition on the extended reals is commutative and associative, so regrouping a sum needs no
  finiteness, and the precondition is never opened. The result, reshaped back to [8, 4096, 2048], is the reference's.

  Modules: Spec (the network as one function; the tiles regrouped), BodyValue and Payload (what one body run leaves, entry by
  entry), Accumulate (the running total over the grid; the written-back blocks tile the array), KernelRun (the operations
  before and after the kernel; the program's run), RefValue (the reference's result read entry by entry),
  LibPlainDot (a plain matrix product's contraction sum).
-/
import proofs.«159105_j18786186952998_1_alg».proof.Defs
import proofs.«159105_j18786186952998_1_alg».proof.Proof.Gen.Kernel
import proofs.«159105_j18786186952998_1_alg».proof.Proof.Gen.Kernel.Skeleton
import proofs.«159105_j18786186952998_1_alg».proof.Proof.Gen.Kernel.Launch
import proofs.«159105_j18786186952998_1_alg».proof.Proof.Gen.Kernel.Points
import proofs.«159105_j18786186952998_1_alg».proof.Proof.Gen.Kernel.Frame
import proofs.«159105_j18786186952998_1_alg».proof.Proof.Gen.KernelIdeal
import proofs.«159105_j18786186952998_1_alg».proof.Proof.Gen.KernelIdeal.Skeleton
import proofs.«159105_j18786186952998_1_alg».proof.Proof.Gen.KernelIdeal.Launch
import proofs.«159105_j18786186952998_1_alg».proof.Proof.Gen.KernelIdeal.Points
import proofs.«159105_j18786186952998_1_alg».proof.Proof.Gen.KernelIdeal.Frame
import proofs.«159105_j18786186952998_1_alg».proof.Proof.Gen.ReferenceIdeal
import proofs.«159105_j18786186952998_1_alg».proof.Proof.Gen.ReferenceIdeal.Run
import proofs.«159105_j18786186952998_1_alg».proof.Proof.Gen.ReferenceIdeal.Read
import proofs.«159105_j18786186952998_1_alg».proof.Proof.Gen.Pre_finite_inputs
import proofs.«159105_j18786186952998_1_alg».proof.Proof.KernelRun
import proofs.«159105_j18786186952998_1_alg».proof.Proof.RefValue
import Idealize.ShloMosaic.Adequacy
import Idealize.ShloMosaic.Init

noncomputable section

namespace Cert.Proof

open Idealize.ShloMosaic Idealize.SL.Sem

/-- The kernel program as printed runs, and its arguments end unchanged. -/
theorem frame_k : Cert.frame_Kernel := fun m ρ _ => Cert.Kernel.Gen.frame m ρ

/-- So does its reading over the extended reals. -/
theorem frame_ki : Cert.frame_KernelIdeal := fun m ρ _ => Cert.KernelIdeal.Gen.frame m ρ

/-- The reference runs, and its arguments end unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel program was rewritten for the reading over the extended reals. -/
theorem preserves : Cert.preserves_Kernel_KernelIdeal := trivial

/-- From memories that agree on the arguments, both programs end with the network of the input and the two ternarized
    matrices in their result. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
